-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128x128 .f32) (main_arg6 : FVec F S128x128 .f32) (main_arg7 : FVec F S128 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S40000x128 .f32) (main_arg1 : IVec S2x640000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x64 .f32) (main_arg9 : FVec F S64 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S40000 : Shape := ⟨1, ![40000]⟩
abbrev S640000x1 : Shape := ⟨2, ![640000, 1]⟩
abbrev S40000x1 : Shape := ⟨2, ![40000, 1]⟩
abbrev S640000x128 : Shape := ⟨2, ![640000, 128]⟩
abbrev S1x128 : Shape := ⟨2, ![1, 128]⟩
abbrev S2000x128 : Shape := ⟨2, ![2000, 128]⟩
abbrev S2000x1 : Shape := ⟨2, ![2000, 1]⟩
abbrev S1x64 : Shape := ⟨2, ![1, 64]⟩
abbrev S40000x64 : Shape := ⟨2, ![40000, 64]⟩
abbrev S2000x64 : Shape := ⟨2, ![2000, 64]⟩

abbrev nBuf : Space → Nat
  | .hbm => 62
  | .vmem => 24
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .f32⟩
  | .hbm, ⟨15, _⟩ => ⟨S640000, .f32⟩
  | .hbm, ⟨16, _⟩ => ⟨S_, .f32⟩
  | .hbm, ⟨17, _⟩ => ⟨S40000, .f32⟩
  | .hbm, ⟨18, _⟩ => ⟨S640000x1, .i32⟩
  | .hbm, ⟨19, _⟩ => ⟨S40000, .f32⟩
  | .hbm, ⟨20, _⟩ => ⟨S_, .f32⟩
  | .hbm, ⟨21, _⟩ => ⟨S40000, .f32⟩
  | .hbm, ⟨22, _⟩ => ⟨S40000, .f32⟩
  | .hbm, ⟨23, _⟩ => ⟨S_, .f32⟩
  | .hbm, ⟨24, _⟩ => ⟨S40000, .f32⟩
  | .hbm, ⟨25, _⟩ => ⟨S40000, .f32⟩
  | .hbm, ⟨26, _⟩ => ⟨S40000x1, .f32⟩
  | .hbm, ⟨27, _⟩ => ⟨S40000x128, .bf16⟩
  | .hbm, ⟨28, _⟩ => ⟨S_, .i32⟩
  | .hbm, ⟨29, _⟩ => ⟨S640000, .i32⟩
  | .hbm, ⟨30, _⟩ => ⟨S640000, .i1⟩
  | .hbm, ⟨31, _⟩ => ⟨S_, .i32⟩
  | .hbm, ⟨32, _⟩ => ⟨S640000, .i32⟩
  | .hbm, ⟨33, _⟩ => ⟨S640000, .i32⟩
  | .hbm, ⟨34, _⟩ => ⟨S640000, .i32⟩
  | .hbm, ⟨35, _⟩ => ⟨S640000x1, .i32⟩
  | .hbm, ⟨36, _⟩ => ⟨S640000x128, .bf16⟩
  | .hbm, ⟨37, _⟩ => ⟨S640000x128, .f32⟩
  | .hbm, ⟨38, _⟩ => ⟨S_, .f32⟩
  | .hbm, ⟨39, _⟩ => ⟨S40000x128, .f32⟩
  | .hbm, ⟨40, _⟩ => ⟨S640000x1, .i32⟩
  | .hbm, ⟨41, _⟩ => ⟨S40000x128, .f32⟩
  | .hbm, ⟨42, _⟩ => ⟨S1x128, .f32⟩
  | .hbm, ⟨43, _⟩ => ⟨S40000x128, .f32⟩
  | .hbm, ⟨44, _⟩ => ⟨S40000x128, .bf16⟩
  | .hbm, ⟨45, _⟩ => ⟨S_, .i32⟩
  | .hbm, ⟨46, _⟩ => ⟨S640000, .i32⟩
  | .hbm, ⟨47, _⟩ => ⟨S640000, .i1⟩
  | .hbm, ⟨48, _⟩ => ⟨S_, .i32⟩
  | .hbm, ⟨49, _⟩ => ⟨S640000, .i32⟩
  | .hbm, ⟨50, _⟩ => ⟨S640000, .i32⟩
  | .hbm, ⟨51, _⟩ => ⟨S640000, .i32⟩
  | .hbm, ⟨52, _⟩ => ⟨S640000x1, .i32⟩
  | .hbm, ⟨53, _⟩ => ⟨S640000x128, .bf16⟩
  | .hbm, ⟨54, _⟩ => ⟨S640000x128, .f32⟩
  | .hbm, ⟨55, _⟩ => ⟨S_, .f32⟩
  | .hbm, ⟨56, _⟩ => ⟨S40000x128, .f32⟩
  | .hbm, ⟨57, _⟩ => ⟨S640000x1, .i32⟩
  | .hbm, ⟨58, _⟩ => ⟨S40000x128, .f32⟩
  | .hbm, ⟨59, _⟩ => ⟨S1x128, .f32⟩
  | .hbm, ⟨60, _⟩ => ⟨S1x64, .f32⟩
  | .hbm, ⟨61, _⟩ => ⟨S40000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x1, .f32⟩
  | .local _ .vmem, ⟨16, _⟩ => ⟨S2000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S128x64, .f32⟩
  | .local _ .vmem, ⟨21, _⟩ => ⟨S1x64, .f32⟩
  | .local _ .vmem, ⟨22, _⟩ => ⟨S2000x64, .f32⟩
  | .local _ .vmem, ⟨23, _⟩ => ⟨S2000x64, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  shapeCasts_S40000_S40000x1 : S40000.ShapeCasts S40000x1
  bitsLt_bf16_f32 : FTy.bits .bf16 < FTy.bits .f32
  bcast_S_S40000x128 : S_.BroadcastsInDim S40000x128 (![] : Fin 0 → Fin S40000x128.rank)
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S40000x128.size a
  hwx0_0 : ∀ i : grid0.Coords, EltTy.bits .f32 = 32 ∨ (Rect.block (s := S40000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S40000x128.size a
  hwx0_1 : ∀ i : grid0.Coords, EltTy.bits .f32 = 32 ∨ (Rect.block (s := S40000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S40000x1.size a
  hwx0_2 : ∀ i : grid0.Coords, EltTy.bits .f32 = 32 ∨ (Rect.block (s := S40000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S40000x128.size a
  hwx0_6 : ∀ i : grid0.Coords, EltTy.bits .f32 = 32 ∨ (Rect.block (s := S40000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S40000x128.size a
  hwx1_0 : ∀ i : grid1.Coords, EltTy.bits .f32 = 32 ∨ (Rect.block (s := S40000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S40000x128.size a
  hwx1_1 : ∀ i : grid1.Coords, EltTy.bits .f32 = 32 ∨ (Rect.block (s := S40000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S40000x1.size a
  hwx1_2 : ∀ i : grid1.Coords, EltTy.bits .f32 = 32 ∨ (Rect.block (s := S40000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .f32 = 32 ∨ (Rect.block (s := S128x64) S128x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x64.size a ≤ S40000x64.size a
  hwx1_8 : ∀ i : grid1.Coords, EltTy.bits .f32 = 32 ∨ (Rect.block (s := S40000x64) S2000x64.size (cc1_transform_8 i) (hinb1_8 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v38) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v40) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v41) S2000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩
abbrev S40000x64 : Shape := ⟨2, ![40000, 64]⟩
abbrev S1x64 : Shape := ⟨2, ![1, 64]⟩

abbrev nBuf : Space → Nat
  | .hbm => 86
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S_, .f32⟩
  | .hbm, ⟨24, _⟩ => ⟨S40000x128, .f32⟩
  | .hbm, ⟨25, _⟩ => ⟨S640000x1, .i32⟩
  | .hbm, ⟨26, _⟩ => ⟨S40000x128, .f32⟩
  | .hbm, ⟨27, _⟩ => ⟨S_, .f32⟩
  | .hbm, ⟨28, _⟩ => ⟨S640000, .f32⟩
  | .hbm, ⟨29, _⟩ => ⟨S_, .f32⟩
  | .hbm, ⟨30, _⟩ => ⟨S40000, .f32⟩
  | .hbm, ⟨31, _⟩ => ⟨S640000x1, .i32⟩
  | .hbm, ⟨32, _⟩ => ⟨S40000, .f32⟩
  | .hbm, ⟨33, _⟩ => ⟨S_, .f32⟩
  | .hbm, ⟨34, _⟩ => ⟨S40000, .f32⟩
  | .hbm, ⟨35, _⟩ => ⟨S40000, .f32⟩
  | .hbm, ⟨36, _⟩ => ⟨S40000x1, .f32⟩
  | .hbm, ⟨37, _⟩ => ⟨S40000x128, .f32⟩
  | .hbm, ⟨38, _⟩ => ⟨S40000x128, .f32⟩
  | .hbm, ⟨39, _⟩ => ⟨S40000x128, .f32⟩
  | .hbm, ⟨40, _⟩ => ⟨S40000x128, .f32⟩
  | .hbm, ⟨41, _⟩ => ⟨S40000x128, .f32⟩
  | .hbm, ⟨42, _⟩ => ⟨S1x128, .f32⟩
  | .hbm, ⟨43, _⟩ => ⟨S40000x128, .f32⟩
  | .hbm, ⟨44, _⟩ => ⟨S40000x128, .f32⟩
  | .hbm, ⟨45, _⟩ => ⟨S_, .f32⟩
  | .hbm, ⟨46, _⟩ => ⟨S40000x128, .f32⟩
  | .hbm, ⟨47, _⟩ => ⟨S40000x128, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S640000x128, .f32⟩
  | .hbm, ⟨57, _⟩ => ⟨S_, .f32⟩
  | .hbm, ⟨58, _⟩ => ⟨S40000x128, .f32⟩
  | .hbm, ⟨59, _⟩ => ⟨S640000x1, .i32⟩
  | .hbm, ⟨60, _⟩ => ⟨S40000x128, .f32⟩
  | .hbm, ⟨61, _⟩ => ⟨S_, .f32⟩
  | .hbm, ⟨62, _⟩ => ⟨S640000, .f32⟩
  | .hbm, ⟨63, _⟩ => ⟨S_, .f32⟩
  | .hbm, ⟨64, _⟩ => ⟨S40000, .f32⟩
  | .hbm, ⟨65, _⟩ => ⟨S640000x1, .i32⟩
  | .hbm, ⟨66, _⟩ => ⟨S40000, .f32⟩
  | .hbm, ⟨67, _⟩ => ⟨S_, .f32⟩
  | .hbm, ⟨68, _⟩ => ⟨S40000, .f32⟩
  | .hbm, ⟨69, _⟩ => ⟨S40000, .f32⟩
  | .hbm, ⟨70, _⟩ => ⟨S40000x1, .f32⟩
  | .hbm, ⟨71, _⟩ => ⟨S40000x128, .f32⟩
  | .hbm, ⟨72, _⟩ => ⟨S40000x128, .f32⟩
  | .hbm, ⟨73, _⟩ => ⟨S40000x128, .f32⟩
  | .hbm, ⟨74, _⟩ => ⟨S40000x128, .f32⟩
  | .hbm, ⟨75, _⟩ => ⟨S40000x128, .f32⟩
  | .hbm, ⟨76, _⟩ => ⟨S1x128, .f32⟩
  | .hbm, ⟨77, _⟩ => ⟨S40000x128, .f32⟩
  | .hbm, ⟨78, _⟩ => ⟨S40000x128, .f32⟩
  | .hbm, ⟨79, _⟩ => ⟨S_, .f32⟩
  | .hbm, ⟨80, _⟩ => ⟨S40000x128, .f32⟩
  | .hbm, ⟨81, _⟩ => ⟨S40000x128, .f32⟩
  | .hbm, ⟨82, _⟩ => ⟨S40000x64, .f32⟩
  | .hbm, ⟨83, _⟩ => ⟨S1x64, .f32⟩
  | .hbm, ⟨84, _⟩ => ⟨S40000x64, .f32⟩
  | .hbm, ⟨85, _⟩ => ⟨S40000x64, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x128_S40000x128_1_0_0_1_n_n_wf : DotDims.WF S40000x128 S128x128 S40000x128 [1] [0] [0] [1] [] []
  dot_S40000x128_S128x64_S40000x64_1_0_0_1_n_n_wf : DotDims.WF S40000x128 S128x64 S40000x64 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def dot_S40000x128_S128x64_S40000x64_1_0_0_1_n_n : DotDims S40000x128 S128x64 S40000x64 where
  lhsContracting := [1]
  rhsContracting := [0]
  lhsNonContracting := [0]
  rhsNonContracting := [1]
  lhsBatch := []
  rhsBatch := []
  wf := dot_S40000x128_S128x64_S40000x64_1_0_0_1_n_n_wf

class Facts : Prop extends Facts₀ where

variable [Facts]
-- ==== Proof.SageRun.lean ====
/-
  The idealized kernel's run, with what every buffer holds at the end.

  The program is four segments: a stretch of host operations, the first kernel over its 20 grid points, a second stretch
  of host operations, the second kernel over its 20 grid points. Every weakly fair execution terminates without a fault,
  and in every final state each buffer outside the kernels' scoped memory holds the contents obtained by folding the
  segments over the launch memory: a host stretch applies its operations, a kernel leaves each of its arrays at what its
  write-backs leave. The frame claim keeps of this only that the arguments are unchanged; here the whole valuation is
  kept, so that the result buffer can be read off it.
-/
import proofs.«148231_j34600256537253_2_alg».proof.Proof.Gen.KernelIdeal.Frame

set_option maxRecDepth 16384

noncomputable section

namespace Cert.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates, nothing faulting, and every final state has each
    unscoped buffer at the fold of the four segments over the launch memory (`Gen.W4`). -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run read at the result buffer and at the ten arguments: the result holds the second kernel's output array
    as its write-backs leave it, the arguments what they held at the launch. -/
theorem run_result : θ_run defs (onTc (τ := τ) (main (F := F))) ⟨m, fun _ => 0, ρ⟩ (fun r => ∀ c : Dev nD,
      r.2.mem ((c.tc : Thread nD τ).loc main_v41) = (dat1 (V3 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v41 (by decide))).trans (W4_arr m ρ c 8),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c)⟩)
    (run_buffers m ρ)

end Cert.Sage

end
-- ==== Proof.SageSpec.lean ====
/-
  Two GraphSAGE layers and a linear head, as functions on the extended reals, index by index.

  One layer, at row p and column q of an n-row array:
      max ( ( Σ_k (a[p,k] · s[p]) · wl[k,q]  +  Σ_k x[p,k] · wr[k,q] ) + b[q] , 0 )
  where a is the sum of the neighbours' features of row p, s[p] the reciprocal of the row's (clamped) degree, x the
  row's own features. The head is  Σ_k h[p,k] · w[k,q] + b[q].  The row count n is a parameter: a 2000-row block of
  the node axis and the whole 40000-row array are the same function of their rows.

  The two programs differ in one place: one multiplies a[p,k] by the reciprocal 1/d[p] of the clamped degree, the
  other divides a[p,k] by d[p]. On the extended reals a quotient by d ≠ 0 IS the product with d⁻¹, and 1/d is d⁻¹, so
  the two agree wherever d ≠ 0 — with no finiteness needed of a or of d — and d = max(deg, 1) ≥ 1 is never 0.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- One layer at row `p`, column `q`: the aggregated features scaled by the row's factor `s p` and multiplied into
    `wl`, plus the row's own features multiplied into `wr`, plus the bias, clamped below at 0. -/
def layerAt {n : ℕ} (a x : (⟨2, ![n, 128]⟩ : Shape).Idx → EReal) (s : Fin n → EReal)
    (wl wr : (⟨2, ![128, 128]⟩ : Shape).Idx → EReal) (b : Fin 128 → EReal) (p : Fin n) (q : Fin 128) : EReal :=
  max (((∑ k : Fin 128, (a (ix2 p k) * s p) * wl (ix2 k q)) + ∑ k : Fin 128, x (ix2 p k) * wr (ix2 k q)) + b q) 0

/-- The layer as an array: entry `i` is `layerAt` at `i`'s two coordinates. -/
def layer {n : ℕ} (a x : (⟨2, ![n, 128]⟩ : Shape).Idx → EReal) (s : Fin n → EReal)
    (wl wr : (⟨2, ![128, 128]⟩ : Shape).Idx → EReal) (b : Fin 128 → EReal) : (⟨2, ![n, 128]⟩ : Shape).Idx → EReal :=
  fun i => layerAt a x s wl wr b (i 0) (i 1)

theorem layer_ix2 {n : ℕ} (a x : (⟨2, ![n, 128]⟩ : Shape).Idx → EReal) (s : Fin n → EReal)
    (wl wr : (⟨2, ![128, 128]⟩ : Shape).Idx → EReal) (b : Fin 128 → EReal) (p : Fin n) (q : Fin 128) :
    layer a x s wl wr b (ix2 p q) = layerAt a x s wl wr b p q := rfl

/-- The linear head at row `p`, column `q`. -/
def headAt {n : ℕ} (h : (⟨2, ![n, 128]⟩ : Shape).Idx → EReal) (w : (⟨2, ![128, 64]⟩ : Shape).Idx → EReal)
    (b : Fin 64 → EReal) (p : Fin n) (q : Fin 64) : EReal :=
  (∑ k : Fin 128, h (ix2 p k) * w (ix2 k q)) + b q

/-- The head as an array. -/
def head {n : ℕ} (h : (⟨2, ![n, 128]⟩ : Shape).Idx → EReal) (w : (⟨2, ![128, 64]⟩ : Shape).Idx → EReal)
    (b : Fin 64 → EReal) : (⟨2, ![n, 64]⟩ : Shape).Idx → EReal :=
  fun i => headAt h w b (i 0) (i 1)

theorem head_ix2 {n : ℕ} (h : (⟨2, ![n, 128]⟩ : Shape).Idx → EReal) (w : (⟨2, ![128, 64]⟩ : Shape).Idx → EReal)
    (b : Fin 64 → EReal) (p : Fin n) (q : Fin 64) : head h w b (ix2 p q) = headAt h w b p q := rfl

/-- A layer entry depends only on the row of `a`, `x` and `s` it reads and on the column of the weights and bias: two
    layers (of possibly different row counts) agree at `(p, q)` and `(p', q)` when those agree. -/
theorem layerAt_congr {n n' : ℕ} {a x : (⟨2, ![n, 128]⟩ : Shape).Idx → EReal} {s : Fin n → EReal}
    {wl wr : (⟨2, ![128, 128]⟩ : Shape).Idx → EReal} {b : Fin 128 → EReal}
    {a' x' : (⟨2, ![n', 128]⟩ : Shape).Idx → EReal} {s' : Fin n' → EReal}
    {wl' wr' : (⟨2, ![128, 128]⟩ : Shape).Idx → EReal} {b' : Fin 128 → EReal}
    {p : Fin n} {p' : Fin n'} {q : Fin 128}
    (ha : ∀ k, a (ix2 p k) = a' (ix2 p' k)) (hx : ∀ k, x (ix2 p k) = x' (ix2 p' k)) (hs : s p = s' p')
    (hwl : ∀ k, wl (ix2 k q) = wl' (ix2 k q)) (hwr : ∀ k, wr (ix2 k q) = wr' (ix2 k q)) (hb : b q = b' q) :
    layerAt a x s wl wr b p q = layerAt a' x' s' wl' wr' b' p' q := by
  unfold layerAt
  rw [hs, hb]
  simp only [ha, hx, hwl, hwr]

/-- A head entry depends only on the row of `h` it reads and on the column of the weight and bias. -/
theorem headAt_congr {n n' : ℕ} {h : (⟨2, ![n, 128]⟩ : Shape).Idx → EReal} {w : (⟨2, ![128, 64]⟩ : Shape).Idx → EReal}
    {b : Fin 64 → EReal} {h' : (⟨2, ![n', 128]⟩ : Shape).Idx → EReal} {w' : (⟨2, ![128, 64]⟩ : Shape).Idx → EReal}
    {b' : Fin 64 → EReal} {p : Fin n} {p' : Fin n'} {q : Fin 64}
    (hh : ∀ k, h (ix2 p k) = h' (ix2 p' k)) (hw : ∀ k, w (ix2 k q) = w' (ix2 k q)) (hb : b q = b' q) :
    headAt h w b p q = headAt h' w' b' p' q := by
  unfold headAt
  rw [hb]
  simp only [hh, hw]

/-- The f32 word of 1.0 denotes the real 1. -/
theorem ofBits_one_f32 : Ideal.ofBits .f32 0x3F800000#32 = 1 := by
  simp [Ideal.ofBits, Ideal.ieee, -EReal.coe_mul]; norm_num

/-- The product with the reciprocal is the quotient, off zero: `a · (1 / d) = a / d` for `d ≠ 0`, at the
    infinities too (both sides are `a · d⁻¹`). -/
theorem mul_div_one (a d : EReal) (hd : d ≠ 0) : a * Ideal.div 1 d = Ideal.div a d := by
  rw [Ideal.div, Ideal.div, if_neg hd, if_neg hd, one_mul]

/-- A degree clamped below at 1 is never 0. -/
theorem max_one_ne_zero (d : EReal) : max d 1 ≠ 0 :=
  (lt_of_lt_of_le zero_lt_one (le_max_right d 1)).ne'

end Cert.Sage

end
-- ==== Proof.LibLayout.lean ====
/-
  Shape casts that add or drop a UNIT axis somewhere other than the front, and broadcasts of a unit axis, read at an
  index given by coordinates: the forms a reduction with kept dimensions meets ([a] ↔ [a,1], [a,b] ↔ [a,1,b],
  [a,b] → [a,b,1], [a,b,c] → [a,b,c,1], [a,b] → [a,1,1,b]; [a,1] → [a,b], [a,b,1] → [a,b,c], [a,b,c,1] → [a,b,c,d],
  [a,1,1,d] → [a,b,c,d]). A shape cast keeps the row-major position, and a unit axis contributes nothing to it; a
  broadcast reads coordinate 0 on the operand's unit axes and the result's coordinate elsewhere.
-/
import Idealize.ShloMosaic.Lib.Pipeline.Value
import Idealize.ShloMosaic.Lib.ValueIdx

namespace Cert.LibLayout

open Idealize.ShloMosaic Idealize.ShloMosaic.ValueIdx

variable {α : Type}

/-! ## Shape casts -/

/-- `[a] → [a,1]`: at (p, u) the operand at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- `[a,b] → [a,1,b]`: at (p, u, q) the operand at (p, q). -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_two, Shape.rowMajor_val_three]
    show p.val * b + q.val = (p.val * 1 + u.val) * b + q.val
    rw [hu, Nat.mul_one, Nat.add_zero])

/-- `[a,1,b] → [a,b]`: at (p, q) the operand at (p, 0, q). -/
theorem shapeCast_a1b_ab_apply {a b : ℕ} (x : (⟨3, ![a, 1, b]⟩ : Shape).Idx → α)
    (h : (⟨3, ![a, 1, b]⟩ : Shape).ShapeCasts ⟨2, ![a, b]⟩) (p : Fin a) (q : Fin b) :
    shapeCast ⟨2, ![a, b]⟩ x h (ix2 p q) = x (ix3 p (0 : Fin 1) q) :=
  shapeCast_apply x h _ _ (by
    rw [Shape.rowMajor_val_three, Shape.rowMajor_val_two]
    show (p.val * 1 + 0) * b + q.val = p.val * b + q.val
    rw [Nat.mul_one, Nat.add_zero])

/-- `[a,b] → [a,b,1]`: at (p, q, u) the operand at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- `[a,b,c] → [a,b,c,1]`: at (p, q, r, u) the operand at (p, q, r). -/
theorem shapeCast_abc_abc1_apply {a b c : ℕ} (x : (⟨3, ![a, b, c]⟩ : Shape).Idx → α)
    (h : (⟨3, ![a, b, c]⟩ : Shape).ShapeCasts ⟨4, ![a, b, c, 1]⟩) (p : Fin a) (q : Fin b) (r : Fin c) (u : Fin 1) :
    shapeCast ⟨4, ![a, b, c, 1]⟩ x h (ix4 p q r u) = x (ix3 p q r) :=
  shapeCast_apply x h _ _ (by
    have hu : u.val = 0 := by omega
    rw [Shape.rowMajor_val_three, Shape.rowMajor_val_four]
    show (p.val * b + q.val) * c + r.val = ((p.val * b + q.val) * c + r.val) * 1 + u.val
    rw [hu, Nat.mul_one, Nat.add_zero])

/-- `[a,b] → [a,1,1,b]`: at (p, u, v, q) the operand at (p, q). -/
theorem shapeCast_ab_a11b_apply {a b : ℕ} (x : (⟨2, ![a, b]⟩ : Shape).Idx → α)
    (h : (⟨2, ![a, b]⟩ : Shape).ShapeCasts ⟨4, ![a, 1, 1, b]⟩) (p : Fin a) (u v : Fin 1) (q : Fin b) :
    shapeCast ⟨4, ![a, 1, 1, b]⟩ x h (ix4 p u v q) = x (ix2 p q) :=
  shapeCast_apply x h _ _ (by
    have hu : u.val = 0 := by omega
    have hv : v.val = 0 := by omega
    rw [Shape.rowMajor_val_two, Shape.rowMajor_val_four]
    show p.val * b + q.val = ((p.val * 1 + u.val) * 1 + v.val) * b + q.val
    simp only [hu, hv, Nat.mul_one, Nat.add_zero])

/-! ## Broadcasts of unit axes -/

/-- `[a,1] → [a,b]`: at (p, q) the operand's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- `[a,b,1] → [a,b,c]`: at (p, q, r) the operand's entry of (p, q). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- `[a,b,c,1] → [a,b,c,d]`: at (p, q, r, s) the operand's entry of (p, q, r). -/
theorem broadcastTo_abc1_abcd_apply {a b c d : ℕ} (v : (⟨4, ![a, b, c, 1]⟩ : Shape).Idx → α)
    (h : (⟨4, ![a, b, c, 1]⟩ : Shape).Broadcasts ⟨4, ![a, b, c, d]⟩) (p : Fin a) (q : Fin b) (r : Fin c) (s : Fin d) :
    broadcastTo ⟨4, ![a, b, c, d]⟩ v h (ix4 p q r s) = v (ix4 p q r (0 : Fin 1)) := by
  refine broadcastTo_apply v h (ix4 p q r s) (ix4 p q r (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show r.val = if c = 1 then 0 else r.val
    split
    · have := r.isLt; omega
    · rfl
  | ⟨3, _⟩ => rfl

/-- `[a,1,1,d] → [a,b,c,d]`: at (p, q, r, s) the operand's entry of (p, s). -/
theorem broadcastTo_a11d_abcd_apply {a b c d : ℕ} (v : (⟨4, ![a, 1, 1, d]⟩ : Shape).Idx → α)
    (h : (⟨4, ![a, 1, 1, d]⟩ : Shape).Broadcasts ⟨4, ![a, b, c, d]⟩) (p : Fin a) (q : Fin b) (r : Fin c) (s : Fin d) :
    broadcastTo ⟨4, ![a, b, c, d]⟩ v h (ix4 p q r s) = v (ix4 p (0 : Fin 1) (0 : Fin 1) s) := by
  refine broadcastTo_apply v h (ix4 p q r s) (ix4 p (0 : Fin 1) (0 : Fin 1) s) fun ax => ?_
  match ax with
  | ⟨0, _⟩ =>
    show p.val = if a = 1 then 0 else p.val
    split
    · have := p.isLt; omega
    · rfl
  | ⟨1, _⟩ => rfl
  | ⟨2, _⟩ => rfl
  | ⟨3, _⟩ =>
    show s.val = if d = 1 then 0 else s.val
    split
    · have := s.isLt; omega
    · rfl

end Cert.LibLayout
-- ==== Proof.SagePayload.lean ====
/-
  What each kernel body computes from its loaded blocks, read at row p and column q of the block.

  A matrix product of a 2000-row block with a 128-row weight into a zero accumulator is, at (p, q), the sum over the
  128 contracted positions k of lhs[p,k] · rhs[k,q]: the contracted shape has one axis of extent 128, so its indices
  are the numbers below 128, and the operand indices the product names at (p, q) and k are (p, k) and (k, q).
  A change of float format is the identity on extended reals, a column of per-row factors broadcast along the lanes
  reads its row's factor, and a row of biases broadcast down the rows reads its column's bias. So the first body's
  stored value is one SAGE layer of its blocks, and the second body's is a layer followed by the linear head.
-/
import proofs.«148231_j34600256537253_2_alg».proof.Proof.Gen.KernelIdeal.Skeleton
import proofs.«148231_j34600256537253_2_alg».proof.Proof.SageSpec
import proofs.«148231_j34600256537253_2_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

namespace Cert.Sage

open Cert.KernelIdeal Cert.KernelIdeal.Gen Idealize.ShloMosaic Idealize.ShloMosaic.ValueIdx

/-- A 2000×128 block times a 128×128 weight, into zeros, at (p, q): the sum over k of lhs[p,k] · rhs[k,q]. -/
theorem matmul_hidden_apply (l : FVec Ideal S2000x128 .bf16) (r : FVec Ideal S128x128 .bf16) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ =>
      show (dot_S2000x128_S128x128_S2000x128_1_0_0_1_n_n.lhsIdx (ix2 p q) ((contrEquiv1 dot_S2000x128_S128x128_S2000x128_1_0_0_1_n_n 128 rfl rfl).symm k) 0).val = p.val
      unfold DotDims.lhsIdx
      rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
      rfl
    | ⟨1, _⟩ => exact (dot_S2000x128_S128x128_S2000x128_1_0_0_1_n_n.lhsIdx_val_of_single rfl (ix2 p q) _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (dot_S2000x128_S128x128_S2000x128_1_0_0_1_n_n.rhsIdx_val_of_single rfl (ix2 p q) _).trans hk
    | ⟨1, _⟩ =>
      show (dot_S2000x128_S128x128_S2000x128_1_0_0_1_n_n.rhsIdx (ix2 p q) ((contrEquiv1 dot_S2000x128_S128x128_S2000x128_1_0_0_1_n_n 128 rfl rfl).symm k) 1).val = q.val
      unfold DotDims.rhsIdx
      rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
      rfl)
  rw [el, er]

/-- A 2000×128 block times the 128×64 head weight, into zeros, at (p, q): the sum over k of lhs[p,k] · rhs[k,q]. -/
theorem matmul_head_apply (l : FVec Ideal S2000x128 .bf16) (r : FVec Ideal S128x64 .bf16) (p : Fin 2000) (q : Fin 64) :
    matmul dot_S2000x128_S128x64_S2000x64_1_0_0_1_n_n none l r (constant S2000x64 .f32 0x00000000#32) (ix2 p q)
      = ∑ k : Fin 128, l (ix2 p k) * r (ix2 k q) := by
  simp only [matmul]
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k := funext fun a => Fin.ext (by
    match a with
    | ⟨0, _⟩ =>
      show (dot_S2000x128_S128x64_S2000x64_1_0_0_1_n_n.lhsIdx (ix2 p q) ((contrEquiv1 dot_S2000x128_S128x64_S2000x64_1_0_0_1_n_n 128 rfl rfl).symm k) 0).val = p.val
      unfold DotDims.lhsIdx
      rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
      rfl
    | ⟨1, _⟩ => exact (dot_S2000x128_S128x64_S2000x64_1_0_0_1_n_n.lhsIdx_val_of_single rfl (ix2 p q) _).trans hk)
  have er : dot_S2000x128_S128x64_S2000x64_1_0_0_1_n_n.rhsIdx (ix2 p q) ((contrEquiv1 dot_S2000x128_S128x64_S2000x64_1_0_0_1_n_n 128 rfl rfl).symm k) = ix2 k q := funext fun a => Fin.ext (by
    match a with
    | ⟨0, _⟩ => exact (dot_S2000x128_S128x64_S2000x64_1_0_0_1_n_n.rhsIdx_val_of_single rfl (ix2 p q) _).trans hk
    | ⟨1, _⟩ =>
      show (dot_S2000x128_S128x64_S2000x64_1_0_0_1_n_n.rhsIdx (ix2 p q) ((contrEquiv1 dot_S2000x128_S128x64_S2000x64_1_0_0_1_n_n 128 rfl rfl).symm k) 1).val = q.val
      unfold DotDims.rhsIdx
      rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
      rfl)
  rw [el, er]

/-- The clamp's splat of the zero word reads 0. -/
theorem splat_zero (i : S2000x128.Idx) : broadcast S2000x128 (Scalar.ofBits (F := Ideal) .f32 0x00000000#32) i = 0 :=
  Ideal.ofBits_zero_f32

/-- THE FIRST BODY: its stored value at (p, q) is one layer of its blocks — the aggregated block `v2` scaled by the
    row factors `v0`, the rows' own features `v7`, the weights `v9`, `v11`, the bias row `v16`. -/
theorem layer1_body_apply (v0 : Vec Ideal S2000x1 .f32) (v2 v7 : Vec Ideal S2000x128 .f32) (v9 v11 : Vec Ideal S128x128 .f32)
    (v16 : Vec Ideal S1x128 .f32) (p : Fin 2000) (q : Fin 128) :
    k0_pay1 (F := Ideal) v0 v2 v7 v9 v11 v16 (ix2 p q)
      = layerAt v2 v7 (fun r => v0 (ix2 r (0 : Fin 1))) v9 v11 (fun j => v16 (ix2 (0 : Fin 1) j)) p q := by
  unfold k0_pay1 layerAt
  dsimp only
  rw [maximumf_apply, addf_apply, addf_apply, matmul_hidden_apply, matmul_hidden_apply, splat_zero]
  simp only [truncf_apply, mulf_apply, shapeCast_self, Cert.LibLayout.broadcastTo_a1_ab_apply, broadcastTo_1b_ab_apply]

/-- THE SECOND BODY: a layer of its blocks, then the head — at (p, q) the sum over k of the layer's (p, k) entry times
    the head weight `v24` at (k, q), plus the head bias `v27` at q. -/
theorem layer2_head_body_apply (v0 : Vec Ideal S2000x1 .f32) (v2 v7 : Vec Ideal S2000x128 .f32) (v10 v12 : Vec Ideal S128x128 .f32)
    (v17 : Vec Ideal S1x128 .f32) (v24 : Vec Ideal S128x64 .f32) (v27 : Vec Ideal S1x64 .f32) (p : Fin 2000) (q : Fin 64) :
    k1_pay1 (F := Ideal) v0 v2 v7 v10 v12 v17 v24 v27 (ix2 p q)
      = headAt (layer v2 v7 (fun r => v0 (ix2 r (0 : Fin 1))) v10 v12 (fun j => v17 (ix2 (0 : Fin 1) j)))
          v24 (fun j => v27 (ix2 (0 : Fin 1) j)) p q := by
  unfold k1_pay1 headAt
  dsimp only
  rw [addf_apply, matmul_head_apply, broadcastTo_1b_ab_apply]
  simp only [shapeCast_self]
  refine congrArg (· + v27 (ix2 (0 : Fin 1) q)) (Finset.sum_congr rfl fun k _ => ?_)
  rw [truncf_apply, truncf_apply, layer_ix2]
  unfold layerAt
  rw [maximumf_apply, addf_apply, addf_apply, matmul_hidden_apply, matmul_hidden_apply, splat_zero]
  simp only [truncf_apply, mulf_apply, shapeCast_self, Cert.LibLayout.broadcastTo_a1_ab_apply, broadcastTo_1b_ab_apply]

end Cert.Sage

end
-- ==== Proof.SageBlocks.lean ====
/-
  From blocks to arrays: what each kernel leaves in its output array, as ONE function of the arrays it finds.

  Both kernels tile the 40000 node rows into 20 blocks of 2000: at grid point t the aggregated features, the rows' own
  features, the per-row factors and the output are read or written at rows t·2000 … t·2000 + 1999, while the weights
  and the bias rows are the whole arrays at every point. A layer's (or the head's) entry at row r depends only on row r
  of the row-tiled arrays, so what point t writes back is the restriction to its rows of the layer of the WHOLE
  arrays; the 20 blocks cover every row (row r is in the block of point r / 2000), so the output array ends holding
  that layer everywhere.
-/
import proofs.«148231_j34600256537253_2_alg».proof.Proof.Gen.KernelIdeal.Frame
import proofs.«148231_j34600256537253_2_alg».proof.Proof.SagePayload

set_option maxRecDepth 16384

noncomputable section

namespace Cert.Sage

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffer contents when a region is entered, at the extended reals: every statement below is for any such contents
variable (V : (c : Dev nD) → (b : Ref sig .tc) → Buf (Elt Ideal) ((c : Thread nD τ).loc b))

theorem offset_zero : (![0, 0] : Fin 2 → Nat) = fun _ => 0 := funext fun a => by fin_cases a <;> rfl

/-- Row `p` of the block of grid point `t` as a row of the 40000-row array. -/
def rowOf (t : ℕ) (ht : t < 20) (p : Fin 2000) : Fin 40000 := ⟨t * 2000 + p.val, by have := p.isLt; omega⟩

/-! ## The first kernel -/

/-- Region 0's printed index maps, decided over its 20 grid points: a row-tiled window's block index is (t, 0), a
    weight's or a bias row's is (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Region 0, window 0: row `p` of point `t`'s block is row `t · 2000 + p` of the array. -/
theorem blk0_0 (c : Dev nD) (t : Fin cfg0.N) (ht : t.val < 20) (p : Fin 2000) (k : Fin 128) :
    iblk0 V c 0 t (ix2 p k) = V c main_v24 (ix2 (rowOf t.val ht p) k) := by
  show V c main_v24 (((cfg0.win 0).blk t).view.emb (ix2 p k)) = _
  refine congrArg (V c main_v24) (funext fun a => Fin.ext ?_)
  obtain ⟨e0a, e0b, e1a, e1b, e2a, e2b, e3a, e3b, e4a, e4b, e5a, e5b, e6a, e6b⟩ := idx0 t
  match a with
  | ⟨0, _⟩ => show win0_0.index t (0 : Fin 2) * 2000 + 1 * p.val = t.val * 2000 + p.val; omega
  | ⟨1, _⟩ => show win0_0.index t (1 : Fin 2) * 128 + 1 * k.val = k.val; omega

/-- Region 0, window 1: row `p` of point `t`'s block is row `t · 2000 + p` of the array. -/
theorem blk0_1 (c : Dev nD) (t : Fin cfg0.N) (ht : t.val < 20) (p : Fin 2000) (k : Fin 128) :
    iblk0 V c 1 t (ix2 p k) = V c main_arg0 (ix2 (rowOf t.val ht p) k) := by
  show V c main_arg0 (((cfg0.win 1).blk t).view.emb (ix2 p k)) = _
  refine congrArg (V c main_arg0) (funext fun a => Fin.ext ?_)
  obtain ⟨e0a, e0b, e1a, e1b, e2a, e2b, e3a, e3b, e4a, e4b, e5a, e5b, e6a, e6b⟩ := idx0 t
  match a with
  | ⟨0, _⟩ => show win0_1.index t (0 : Fin 2) * 2000 + 1 * p.val = t.val * 2000 + p.val; omega
  | ⟨1, _⟩ => show win0_1.index t (1 : Fin 2) * 128 + 1 * k.val = k.val; omega

/-- Region 0, window 2: row `p` of point `t`'s block is row `t · 2000 + p` of the array. -/
theorem blk0_2 (c : Dev nD) (t : Fin cfg0.N) (ht : t.val < 20) (p : Fin 2000) (k : Fin 1) :
    iblk0 V c 2 t (ix2 p k) = V c main_v12 (ix2 (rowOf t.val ht p) k) := by
  show V c main_v12 (((cfg0.win 2).blk t).view.emb (ix2 p k)) = _
  refine congrArg (V c main_v12) (funext fun a => Fin.ext ?_)
  obtain ⟨e0a, e0b, e1a, e1b, e2a, e2b, e3a, e3b, e4a, e4b, e5a, e5b, e6a, e6b⟩ := idx0 t
  match a with
  | ⟨0, _⟩ => show win0_2.index t (0 : Fin 2) * 2000 + 1 * p.val = t.val * 2000 + p.val; omega
  | ⟨1, _⟩ => show win0_2.index t (1 : Fin 2) * 1 + 1 * k.val = k.val; omega

/-- Region 0, window 3: the block is the whole array at every point. -/
theorem blk0_3 (c : Dev nD) (t : Fin cfg0.N) (k : Fin 128) (q : Fin 128) :
    iblk0 V c 3 t (ix2 k q) = V c main_arg2 (ix2 k q) := by
  show V c main_arg2 (((cfg0.win 3).blk t).view.emb (ix2 k q)) = _
  refine congrArg (V c main_arg2) (funext fun a => Fin.ext ?_)
  obtain ⟨e0a, e0b, e1a, e1b, e2a, e2b, e3a, e3b, e4a, e4b, e5a, e5b, e6a, e6b⟩ := idx0 t
  match a with
  | ⟨0, _⟩ => show win0_3.index t (0 : Fin 2) * 128 + 1 * k.val = k.val; omega
  | ⟨1, _⟩ => show win0_3.index t (1 : Fin 2) * 128 + 1 * q.val = q.val; omega

/-- Region 0, window 4: the block is the whole array at every point. -/
theorem blk0_4 (c : Dev nD) (t : Fin cfg0.N) (k : Fin 128) (q : Fin 128) :
    iblk0 V c 4 t (ix2 k q) = V c main_arg3 (ix2 k q) := by
  show V c main_arg3 (((cfg0.win 4).blk t).view.emb (ix2 k q)) = _
  refine congrArg (V c main_arg3) (funext fun a => Fin.ext ?_)
  obtain ⟨e0a, e0b, e1a, e1b, e2a, e2b, e3a, e3b, e4a, e4b, e5a, e5b, e6a, e6b⟩ := idx0 t
  match a with
  | ⟨0, _⟩ => show win0_4.index t (0 : Fin 2) * 128 + 1 * k.val = k.val; omega
  | ⟨1, _⟩ => show win0_4.index t (1 : Fin 2) * 128 + 1 * q.val = q.val; omega

/-- Region 0, window 5: the block is the whole array at every point. -/
theorem blk0_5 (c : Dev nD) (t : Fin cfg0.N) (k : Fin 1) (q : Fin 128) :
    iblk0 V c 5 t (ix2 k q) = V c main_v25 (ix2 k q) := by
  show V c main_v25 (((cfg0.win 5).blk t).view.emb (ix2 k q)) = _
  refine congrArg (V c main_v25) (funext fun a => Fin.ext ?_)
  obtain ⟨e0a, e0b, e1a, e1b, e2a, e2b, e3a, e3b, e4a, e4b, e5a, e5b, e6a, e6b⟩ := idx0 t
  match a with
  | ⟨0, _⟩ => show win0_5.index t (0 : Fin 2) * 1 + 1 * k.val = k.val; omega
  | ⟨1, _⟩ => show win0_5.index t (1 : Fin 2) * 128 + 1 * q.val = q.val; omega

/-- Region 0's output window: entry `(p, q)` of point `t`'s block sits at row `t · 2000 + p`, column `q` of the array. -/
theorem emb0_6 (t : Fin cfg0.N) (ht : t.val < 20) (p : Fin 2000) (q : Fin 128) :
    (((cfg0.win 6).blk t).view.emb (ix2 p q) : S40000x128.Idx) = ix2 (rowOf t.val ht p) q := by
  refine funext fun a => Fin.ext ?_
  obtain ⟨e0a, e0b, e1a, e1b, e2a, e2b, e3a, e3b, e4a, e4b, e5a, e5b, e6a, e6b⟩ := idx0 t
  match a with
  | ⟨0, _⟩ => show win0_6.index t (0 : Fin 2) * 2000 + 1 * p.val = t.val * 2000 + p.val; omega
  | ⟨1, _⟩ => show win0_6.index t (1 : Fin 2) * 128 + 1 * q.val = q.val; omega

/-- An index of the output array is in point `t`'s block iff each coordinate is in the block's range on its axis. -/
theorem mem_blk0_6 (t : Fin cfg0.N) (i : S40000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v26).slice (win0_6.rect t)).set ↔ _
  rw [View.set_slice_whole, Rect.mem_set_unit]
  exact Iff.rfl

/-- The 20 blocks of 2000 rows cover the 40000 rows: row `r` lies in the block of point `r / 2000`. -/
theorem covered0_6 (i : S40000x128.Idx) :
    ∃ t : Fin cfg0.N, (cfg0.win 6).flush t = true ∧ i ∈ ((cfg0.win 6).blk t).view.set := by
  have hi0 : (i 0).val < 40000 := (i 0).isLt
  have hi1 : (i 1).val < 128 := (i 1).isLt
  have hN : cfg0.N = 20 := N_0
  obtain ⟨t, htv⟩ : ∃ t : Fin cfg0.N, t.val = (i 0).val / 2000 := ⟨⟨(i 0).val / 2000, by omega⟩, rfl⟩
  refine ⟨t, flush0_6 t, ?_⟩
  rw [mem_blk0_6]
  obtain ⟨e0a, e0b, e1a, e1b, e2a, e2b, e3a, e3b, e4a, e4b, e5a, e5b, e6a, e6b⟩ := idx0 t
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- What the first kernel's output array ends holding: one layer of the arrays the region finds. -/
def layer1_array (c : Dev nD) : S40000x128.Idx → EReal :=
  layer (V c main_v24) (V c main_arg0) (fun r => V c main_v12 (ix2 r (0 : Fin 1))) (V c main_arg2) (V c main_arg3)
    (fun j => V c main_v25 (ix2 (0 : Fin 1) j))

/-- WHAT POINT `t` WRITES BACK is its block of that layer. -/
theorem flushed_layer1 (c : Dev nD) (t : Fin cfg0.N) :
    (dat0 V c).flushed 6 t = ((cfg0.win 6).blk t).view.read (Elt Ideal) (layer1_array V c) := by
  have ht : t.val < 20 := by have h := t.isLt; have e : cfg0.N = 20 := N_0; omega
  show (cfg0.win 6).cut (grid0.coords t) ((dat0 V c).after 6 t) = _
  rw [after0_6]
  unfold out0_6
  rw [View.canon_unit_zero offset_zero]
  simp only [View.ld_unit_zero (S := S2000x128) offset_zero, View.ld_unit_zero (S := S2000x1) offset_zero,
    View.ld_unit_zero (S := S128x128) offset_zero, View.ld_unit_zero (S := S1x128) offset_zero]
  funext j
  obtain ⟨p, q, rfl⟩ : ∃ (p : Fin 2000) (q : Fin 128), j = ix2 p q := ⟨j 0, j 1, eq_ix2 j⟩
  show k0_pay1 (iblk0 V c 2 t) (iblk0 V c 0 t) (iblk0 V c 1 t) (iblk0 V c 3 t) (iblk0 V c 4 t) (iblk0 V c 5 t) (ix2 p q)
    = layer1_array V c (((cfg0.win 6).blk t).view.emb (ix2 p q))
  rw [emb0_6 t ht p q]
  refine (layer1_body_apply _ _ _ _ _ _ p q).trans ?_
  unfold layer1_array
  rw [layer_ix2]
  exact layerAt_congr (fun k => blk0_0 V c t ht p k) (fun k => blk0_1 V c t ht p k) (blk0_2 V c t ht p 0)
    (fun k => blk0_3 V c t k q) (fun k => blk0_4 V c t k q) (blk0_5 V c t 0 q)

/-- THE FIRST KERNEL'S OUTPUT ARRAY after its 20 points: that layer, everywhere. -/
theorem layer1_array_eq (c : Dev nD) : (dat0 V c).arrAt 6 cfg0.N = layer1_array V c :=
  (dat0 V c).arrAt_eq_of_cover 6 (layer1_array V c) (fun t _ => flushed_layer1 V c t) covered0_6

/-! ## The second kernel -/

/-- Region 1's printed index maps, decided over its 20 grid points: a row-tiled window's block index is (t, 0), a
    weight's or a bias row's is (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Region 1, window 0: row `p` of point `t`'s block is row `t · 2000 + p` of the array. -/
theorem blk1_0 (c : Dev nD) (t : Fin cfg1.N) (ht : t.val < 20) (p : Fin 2000) (k : Fin 128) :
    iblk1 V c 0 t (ix2 p k) = V c main_v38 (ix2 (rowOf t.val ht p) k) := by
  show V c main_v38 (((cfg1.win 0).blk t).view.emb (ix2 p k)) = _
  refine congrArg (V c main_v38) (funext fun a => Fin.ext ?_)
  obtain ⟨e0a, e0b, e1a, e1b, e2a, e2b, e3a, e3b, e4a, e4b, e5a, e5b, e6a, e6b, e7a, e7b, e8a, e8b⟩ := idx1 t
  match a with
  | ⟨0, _⟩ => show win1_0.index t (0 : Fin 2) * 2000 + 1 * p.val = t.val * 2000 + p.val; omega
  | ⟨1, _⟩ => show win1_0.index t (1 : Fin 2) * 128 + 1 * k.val = k.val; omega

/-- Region 1, window 1: row `p` of point `t`'s block is row `t · 2000 + p` of the array. -/
theorem blk1_1 (c : Dev nD) (t : Fin cfg1.N) (ht : t.val < 20) (p : Fin 2000) (k : Fin 128) :
    iblk1 V c 1 t (ix2 p k) = V c main_v26 (ix2 (rowOf t.val ht p) k) := by
  show V c main_v26 (((cfg1.win 1).blk t).view.emb (ix2 p k)) = _
  refine congrArg (V c main_v26) (funext fun a => Fin.ext ?_)
  obtain ⟨e0a, e0b, e1a, e1b, e2a, e2b, e3a, e3b, e4a, e4b, e5a, e5b, e6a, e6b, e7a, e7b, e8a, e8b⟩ := idx1 t
  match a with
  | ⟨0, _⟩ => show win1_1.index t (0 : Fin 2) * 2000 + 1 * p.val = t.val * 2000 + p.val; omega
  | ⟨1, _⟩ => show win1_1.index t (1 : Fin 2) * 128 + 1 * k.val = k.val; omega

/-- Region 1, window 2: row `p` of point `t`'s block is row `t · 2000 + p` of the array. -/
theorem blk1_2 (c : Dev nD) (t : Fin cfg1.N) (ht : t.val < 20) (p : Fin 2000) (k : Fin 1) :
    iblk1 V c 2 t (ix2 p k) = V c main_v12 (ix2 (rowOf t.val ht p) k) := by
  show V c main_v12 (((cfg1.win 2).blk t).view.emb (ix2 p k)) = _
  refine congrArg (V c main_v12) (funext fun a => Fin.ext ?_)
  obtain ⟨e0a, e0b, e1a, e1b, e2a, e2b, e3a, e3b, e4a, e4b, e5a, e5b, e6a, e6b, e7a, e7b, e8a, e8b⟩ := idx1 t
  match a with
  | ⟨0, _⟩ => show win1_2.index t (0 : Fin 2) * 2000 + 1 * p.val = t.val * 2000 + p.val; omega
  | ⟨1, _⟩ => show win1_2.index t (1 : Fin 2) * 1 + 1 * k.val = k.val; omega

/-- Region 1, window 3: the block is the whole array at every point. -/
theorem blk1_3 (c : Dev nD) (t : Fin cfg1.N) (k : Fin 128) (q : Fin 128) :
    iblk1 V c 3 t (ix2 k q) = V c main_arg5 (ix2 k q) := by
  show V c main_arg5 (((cfg1.win 3).blk t).view.emb (ix2 k q)) = _
  refine congrArg (V c main_arg5) (funext fun a => Fin.ext ?_)
  obtain ⟨e0a, e0b, e1a, e1b, e2a, e2b, e3a, e3b, e4a, e4b, e5a, e5b, e6a, e6b, e7a, e7b, e8a, e8b⟩ := idx1 t
  match a with
  | ⟨0, _⟩ => show win1_3.index t (0 : Fin 2) * 128 + 1 * k.val = k.val; omega
  | ⟨1, _⟩ => show win1_3.index t (1 : Fin 2) * 128 + 1 * q.val = q.val; omega

/-- Region 1, window 4: the block is the whole array at every point. -/
theorem blk1_4 (c : Dev nD) (t : Fin cfg1.N) (k : Fin 128) (q : Fin 128) :
    iblk1 V c 4 t (ix2 k q) = V c main_arg6 (ix2 k q) := by
  show V c main_arg6 (((cfg1.win 4).blk t).view.emb (ix2 k q)) = _
  refine congrArg (V c main_arg6) (funext fun a => Fin.ext ?_)
  obtain ⟨e0a, e0b, e1a, e1b, e2a, e2b, e3a, e3b, e4a, e4b, e5a, e5b, e6a, e6b, e7a, e7b, e8a, e8b⟩ := idx1 t
  match a with
  | ⟨0, _⟩ => show win1_4.index t (0 : Fin 2) * 128 + 1 * k.val = k.val; omega
  | ⟨1, _⟩ => show win1_4.index t (1 : Fin 2) * 128 + 1 * q.val = q.val; omega

/-- Region 1, window 5: the block is the whole array at every point. -/
theorem blk1_5 (c : Dev nD) (t : Fin cfg1.N) (k : Fin 1) (q : Fin 128) :
    iblk1 V c 5 t (ix2 k q) = V c main_v39 (ix2 k q) := by
  show V c main_v39 (((cfg1.win 5).blk t).view.emb (ix2 k q)) = _
  refine congrArg (V c main_v39) (funext fun a => Fin.ext ?_)
  obtain ⟨e0a, e0b, e1a, e1b, e2a, e2b, e3a, e3b, e4a, e4b, e5a, e5b, e6a, e6b, e7a, e7b, e8a, e8b⟩ := idx1 t
  match a with
  | ⟨0, _⟩ => show win1_5.index t (0 : Fin 2) * 1 + 1 * k.val = k.val; omega
  | ⟨1, _⟩ => show win1_5.index t (1 : Fin 2) * 128 + 1 * q.val = q.val; omega

/-- Region 1, window 6: the block is the whole array at every point. -/
theorem blk1_6 (c : Dev nD) (t : Fin cfg1.N) (k : Fin 128) (q : Fin 64) :
    iblk1 V c 6 t (ix2 k q) = V c main_arg8 (ix2 k q) := by
  show V c main_arg8 (((cfg1.win 6).blk t).view.emb (ix2 k q)) = _
  refine congrArg (V c main_arg8) (funext fun a => Fin.ext ?_)
  obtain ⟨e0a, e0b, e1a, e1b, e2a, e2b, e3a, e3b, e4a, e4b, e5a, e5b, e6a, e6b, e7a, e7b, e8a, e8b⟩ := idx1 t
  match a with
  | ⟨0, _⟩ => show win1_6.index t (0 : Fin 2) * 128 + 1 * k.val = k.val; omega
  | ⟨1, _⟩ => show win1_6.index t (1 : Fin 2) * 64 + 1 * q.val = q.val; omega

/-- Region 1, window 7: the block is the whole array at every point. -/
theorem blk1_7 (c : Dev nD) (t : Fin cfg1.N) (k : Fin 1) (q : Fin 64) :
    iblk1 V c 7 t (ix2 k q) = V c main_v40 (ix2 k q) := by
  show V c main_v40 (((cfg1.win 7).blk t).view.emb (ix2 k q)) = _
  refine congrArg (V c main_v40) (funext fun a => Fin.ext ?_)
  obtain ⟨e0a, e0b, e1a, e1b, e2a, e2b, e3a, e3b, e4a, e4b, e5a, e5b, e6a, e6b, e7a, e7b, e8a, e8b⟩ := idx1 t
  match a with
  | ⟨0, _⟩ => show win1_7.index t (0 : Fin 2) * 1 + 1 * k.val = k.val; omega
  | ⟨1, _⟩ => show win1_7.index t (1 : Fin 2) * 64 + 1 * q.val = q.val; omega

/-- Region 1's output window: entry `(p, q)` of point `t`'s block sits at row `t · 2000 + p`, column `q` of the array. -/
theorem emb1_8 (t : Fin cfg1.N) (ht : t.val < 20) (p : Fin 2000) (q : Fin 64) :
    (((cfg1.win 8).blk t).view.emb (ix2 p q) : S40000x64.Idx) = ix2 (rowOf t.val ht p) q := by
  refine funext fun a => Fin.ext ?_
  obtain ⟨e0a, e0b, e1a, e1b, e2a, e2b, e3a, e3b, e4a, e4b, e5a, e5b, e6a, e6b, e7a, e7b, e8a, e8b⟩ := idx1 t
  match a with
  | ⟨0, _⟩ => show win1_8.index t (0 : Fin 2) * 2000 + 1 * p.val = t.val * 2000 + p.val; omega
  | ⟨1, _⟩ => show win1_8.index t (1 : Fin 2) * 64 + 1 * q.val = q.val; omega

/-- An index of the output array is in point `t`'s block iff each coordinate is in the block's range on its axis. -/
theorem mem_blk1_8 (t : Fin cfg1.N) (i : S40000x64.Idx) :
    i ∈ ((cfg1.win 8).blk t).view.set ↔ ∀ a : Fin 2, win1_8.index t a * S2000x64.size a ≤ (i a).val ∧ (i a).val < win1_8.index t a * S2000x64.size a + S2000x64.size a := by
  show i ∈ ((View.whole main_v41).slice (win1_8.rect t)).set ↔ _
  rw [View.set_slice_whole, Rect.mem_set_unit]
  exact Iff.rfl

/-- The 20 blocks of 2000 rows cover the 40000 rows: row `r` lies in the block of point `r / 2000`. -/
theorem covered1_8 (i : S40000x64.Idx) :
    ∃ t : Fin cfg1.N, (cfg1.win 8).flush t = true ∧ i ∈ ((cfg1.win 8).blk t).view.set := by
  have hi0 : (i 0).val < 40000 := (i 0).isLt
  have hi1 : (i 1).val < 64 := (i 1).isLt
  have hN : cfg1.N = 20 := N_1
  obtain ⟨t, htv⟩ : ∃ t : Fin cfg1.N, t.val = (i 0).val / 2000 := ⟨⟨(i 0).val / 2000, by omega⟩, rfl⟩
  refine ⟨t, flush1_8 t, ?_⟩
  rw [mem_blk1_8]
  obtain ⟨e0a, e0b, e1a, e1b, e2a, e2b, e3a, e3b, e4a, e4b, e5a, e5b, e6a, e6b, e7a, e7b, e8a, e8b⟩ := idx1 t
  intro a
  match a with
  | ⟨0, _⟩ => show win1_8.index t (0 : Fin 2) * 2000 ≤ (i 0).val ∧ (i 0).val < win1_8.index t (0 : Fin 2) * 2000 + 2000; omega
  | ⟨1, _⟩ => show win1_8.index t (1 : Fin 2) * 64 ≤ (i 1).val ∧ (i 1).val < win1_8.index t (1 : Fin 2) * 64 + 64; omega

/-- What the second kernel's output array ends holding: a layer of the arrays the region finds, then the head. -/
def head_array (c : Dev nD) : S40000x64.Idx → EReal :=
  head (layer (V c main_v38) (V c main_v26) (fun r => V c main_v12 (ix2 r (0 : Fin 1))) (V c main_arg5) (V c main_arg6)
      (fun j => V c main_v39 (ix2 (0 : Fin 1) j)))
    (V c main_arg8) (fun j => V c main_v40 (ix2 (0 : Fin 1) j))

/-- WHAT POINT `t` WRITES BACK is its block of that array. -/
theorem flushed_head (c : Dev nD) (t : Fin cfg1.N) :
    (dat1 V c).flushed 8 t = ((cfg1.win 8).blk t).view.read (Elt Ideal) (head_array V c) := by
  have ht : t.val < 20 := by have h := t.isLt; have e : cfg1.N = 20 := N_1; omega
  show (cfg1.win 8).cut (grid1.coords t) ((dat1 V c).after 8 t) = _
  rw [after1_8]
  unfold out1_8
  rw [View.canon_unit_zero offset_zero]
  simp only [View.ld_unit_zero (S := S2000x128) offset_zero, View.ld_unit_zero (S := S2000x1) offset_zero,
    View.ld_unit_zero (S := S128x128) offset_zero, View.ld_unit_zero (S := S1x128) offset_zero,
    View.ld_unit_zero (S := S128x64) offset_zero, View.ld_unit_zero (S := S1x64) offset_zero]
  funext j
  obtain ⟨p, q, rfl⟩ : ∃ (p : Fin 2000) (q : Fin 64), j = ix2 p q := ⟨j 0, j 1, eq_ix2 j⟩
  show k1_pay1 (iblk1 V c 2 t) (iblk1 V c 0 t) (iblk1 V c 1 t) (iblk1 V c 3 t) (iblk1 V c 4 t) (iblk1 V c 5 t)
      (iblk1 V c 6 t) (iblk1 V c 7 t) (ix2 p q)
    = head_array V c (((cfg1.win 8).blk t).view.emb (ix2 p q))
  rw [emb1_8 t ht p q]
  refine (layer2_head_body_apply _ _ _ _ _ _ _ _ p q).trans ?_
  unfold head_array
  rw [head_ix2]
  refine headAt_congr (fun k => ?_) (fun k => blk1_6 V c t k q) (blk1_7 V c t 0 q)
  rw [layer_ix2, layer_ix2]
  exact layerAt_congr (fun k' => blk1_0 V c t ht p k') (fun k' => blk1_1 V c t ht p k') (blk1_2 V c t ht p 0)
    (fun k' => blk1_3 V c t k' k) (fun k' => blk1_4 V c t k' k) (blk1_5 V c t 0 k)

/-- THE SECOND KERNEL'S OUTPUT ARRAY after its 20 points: that array, everywhere. -/
theorem head_array_eq (c : Dev nD) : (dat1 V c).arrAt 8 cfg1.N = head_array V c :=
  (dat1 V c).arrAt_eq_of_cover 8 (head_array V c) (fun t _ => flushed_head V c t) covered1_8

end Cert.Sage

end
-- ==== Proof.SageRefOps.lean ====
/-
  The reference's idioms read at coordinates: the host's matrix product as a sum over the contracted index, a per-row
  vector broadcast to a column and along the lanes, a bias vector broadcast to a row and down the rows, the zero splat;
  and with them the reference's layer and head, as the program spells them, equal to the specification's.

  The layer divides the aggregated features by the clamped degree d[p] where the specification multiplies by 1 / d[p]:
  a quotient by d[p] ≠ 0 is the product with the reciprocal.
-/
import proofs.«148231_j34600256537253_2_alg».proof.Proof.Gen.ReferenceIdeal
import proofs.«148231_j34600256537253_2_alg».proof.Proof.SageSpec
import Idealize.ShloMosaic.Lib.Pipeline.Value
import Idealize.ShloMosaic.Lib.ValueIdx
import Idealize.ShloMosaic.Lib.IdealHost
import Idealize.ShloMosaic.PureOps.Ideal.Laws

noncomputable section

namespace Cert.Sage.Ref

open Cert.ReferenceIdeal Cert.ReferenceIdeal.Gen Cert.Sage
open Idealize.ShloMosaic Idealize.ShloMosaic.ValueIdx

/-- The host's product of the 40000×128 features with a 128×128 weight, at (p, q): the sum over k of lhs[p,k] · rhs[k,q]. -/
theorem hostDot_hidden_apply (l : FVec Ideal S40000x128 .f32) (r : FVec Ideal S128x128 .f32) (p : Fin 40000) (q : Fin 128) :
    Host.dotGeneral dot_S40000x128_S128x128_S40000x128_1_0_0_1_n_n none l r (ix2 p q) = ∑ k : Fin 128, l (ix2 p k) * r (ix2 k q) := by
  simp only [Host.dotGeneral]
  rw [Ideal.dotGeneral_apply, ← Equiv.sum_comp (contrEquiv1 dot_S40000x128_S128x128_S40000x128_1_0_0_1_n_n 128 rfl rfl).symm]
  refine Finset.sum_congr rfl fun k _ => ?_
  have hk := contrEquiv1_symm_val dot_S40000x128_S128x128_S40000x128_1_0_0_1_n_n 128 rfl rfl k
  have el : dot_S40000x128_S128x128_S40000x128_1_0_0_1_n_n.lhsIdx (ix2 p q) ((contrEquiv1 dot_S40000x128_S128x128_S40000x128_1_0_0_1_n_n 128 rfl rfl).symm k) = ix2 p k := funext fun a => Fin.ext (by
    match a with
    | ⟨0, _⟩ =>
      show (dot_S40000x128_S128x128_S40000x128_1_0_0_1_n_n.lhsIdx (ix2 p q) ((contrEquiv1 dot_S40000x128_S128x128_S40000x128_1_0_0_1_n_n 128 rfl rfl).symm k) 0).val = p.val
      unfold DotDims.lhsIdx
      rw [dif_neg (show ¬(0 : Fin S40000x128.rank) ∈ dot_S40000x128_S128x128_S40000x128_1_0_0_1_n_n.lhsBatch by decide), dif_pos (show (0 : Fin S40000x128.rank) ∈ dot_S40000x128_S128x128_S40000x128_1_0_0_1_n_n.lhsNonContracting by decide)]
      rfl
    | ⟨1, _⟩ => exact (dot_S40000x128_S128x128_S40000x128_1_0_0_1_n_n.lhsIdx_val_of_single rfl (ix2 p q) _).trans hk)
  have er : dot_S40000x128_S128x128_S40000x128_1_0_0_1_n_n.rhsIdx (ix2 p q) ((contrEquiv1 dot_S40000x128_S128x128_S40000x128_1_0_0_1_n_n 128 rfl rfl).symm k) = ix2 k q := funext fun a => Fin.ext (by
    match a with
    | ⟨0, _⟩ => exact (dot_S40000x128_S128x128_S40000x128_1_0_0_1_n_n.rhsIdx_val_of_single rfl (ix2 p q) _).trans hk
    | ⟨1, _⟩ =>
      show (dot_S40000x128_S128x128_S40000x128_1_0_0_1_n_n.rhsIdx (ix2 p q) ((contrEquiv1 dot_S40000x128_S128x128_S40000x128_1_0_0_1_n_n 128 rfl rfl).symm k) 1).val = q.val
      unfold DotDims.rhsIdx
      rw [dif_neg (show ¬(1 : Fin S128x128.rank) ∈ dot_S40000x128_S128x128_S40000x128_1_0_0_1_n_n.rhsBatch by decide), dif_pos (show (1 : Fin S128x128.rank) ∈ dot_S40000x128_S128x128_S40000x128_1_0_0_1_n_n.rhsNonContracting by decide)]
      rfl)
  rw [el, er]

/-- The host's product of the 40000×128 features with the 128×64 head weight, at (p, q): the sum over k of lhs[p,k] · rhs[k,q]. -/
theorem hostDot_head_apply (l : FVec Ideal S40000x128 .f32) (r : FVec Ideal S128x64 .f32) (p : Fin 40000) (q : Fin 64) :
    Host.dotGeneral dot_S40000x128_S128x64_S40000x64_1_0_0_1_n_n none l r (ix2 p q) = ∑ k : Fin 128, l (ix2 p k) * r (ix2 k q) := by
  simp only [Host.dotGeneral]
  rw [Ideal.dotGeneral_apply, ← Equiv.sum_comp (contrEquiv1 dot_S40000x128_S128x64_S40000x64_1_0_0_1_n_n 128 rfl rfl).symm]
  refine Finset.sum_congr rfl fun k _ => ?_
  have hk := contrEquiv1_symm_val dot_S40000x128_S128x64_S40000x64_1_0_0_1_n_n 128 rfl rfl k
  have el : dot_S40000x128_S128x64_S40000x64_1_0_0_1_n_n.lhsIdx (ix2 p q) ((contrEquiv1 dot_S40000x128_S128x64_S40000x64_1_0_0_1_n_n 128 rfl rfl).symm k) = ix2 p k := funext fun a => Fin.ext (by
    match a with
    | ⟨0, _⟩ =>
      show (dot_S40000x128_S128x64_S40000x64_1_0_0_1_n_n.lhsIdx (ix2 p q) ((contrEquiv1 dot_S40000x128_S128x64_S40000x64_1_0_0_1_n_n 128 rfl rfl).symm k) 0).val = p.val
      unfold DotDims.lhsIdx
      rw [dif_neg (show ¬(0 : Fin S40000x128.rank) ∈ dot_S40000x128_S128x64_S40000x64_1_0_0_1_n_n.lhsBatch by decide), dif_pos (show (0 : Fin S40000x128.rank) ∈ dot_S40000x128_S128x64_S40000x64_1_0_0_1_n_n.lhsNonContracting by decide)]
      rfl
    | ⟨1, _⟩ => exact (dot_S40000x128_S128x64_S40000x64_1_0_0_1_n_n.lhsIdx_val_of_single rfl (ix2 p q) _).trans hk)
  have er : dot_S40000x128_S128x64_S40000x64_1_0_0_1_n_n.rhsIdx (ix2 p q) ((contrEquiv1 dot_S40000x128_S128x64_S40000x64_1_0_0_1_n_n 128 rfl rfl).symm k) = ix2 k q := funext fun a => Fin.ext (by
    match a with
    | ⟨0, _⟩ => exact (dot_S40000x128_S128x64_S40000x64_1_0_0_1_n_n.rhsIdx_val_of_single rfl (ix2 p q) _).trans hk
    | ⟨1, _⟩ =>
      show (dot_S40000x128_S128x64_S40000x64_1_0_0_1_n_n.rhsIdx (ix2 p q) ((contrEquiv1 dot_S40000x128_S128x64_S40000x64_1_0_0_1_n_n 128 rfl rfl).symm k) 1).val = q.val
      unfold DotDims.rhsIdx
      rw [dif_neg (show ¬(1 : Fin S128x64.rank) ∈ dot_S40000x128_S128x64_S40000x64_1_0_0_1_n_n.rhsBatch by decide), dif_pos (show (1 : Fin S128x64.rank) ∈ dot_S40000x128_S128x64_S40000x64_1_0_0_1_n_n.rhsNonContracting by decide)]
      rfl)
  rw [el, er]

/-- A vector of 40000 per-row values broadcast to a column and then along the lanes reads, at (p, k), the value of row p. -/
theorem rowBroadcast_apply (d : FVec Ideal S40000 .f32) (p : Fin 40000) (k : Fin 128) :
    broadcastInDim S40000x128 ![0, 1] bcast_S40000x1_S40000x128_0_1 (broadcastInDim S40000x1 ![0] bcast_S40000_S40000x1_0 d) (ix2 p k)
      = d (ix1 p) := by
  rw [broadcastInDim_apply _ bcast_S40000x1_S40000x128_0_1 _ (ix2 p k) (ix2 p (0 : Fin 1)) (fun a => match a with
    | ⟨0, _⟩ => by show p.val = if (40000 : Nat) = 1 then 0 else p.val; rw [if_neg (by decide)]
    | ⟨1, _⟩ => by show 0 = if (1 : Nat) = 1 then 0 else k.val; rw [if_pos rfl])]
  exact broadcastInDim_apply _ bcast_S40000_S40000x1_0 d (ix2 p (0 : Fin 1)) (ix1 p) (fun a => match a with
    | ⟨0, _⟩ => by show p.val = if (40000 : Nat) = 1 then 0 else p.val; rw [if_neg (by decide)])

/-- A bias vector of 128 entries broadcast to a row and then down the rows reads, at (p, q), the bias of column q. -/
theorem biasBroadcast128_apply (b : FVec Ideal S128 .f32) (p : Fin 40000) (q : Fin 128) :
    broadcastInDim S40000x128 ![0, 1] bcast_S1x128_S40000x128_0_1 (broadcastInDim S1x128 ![1] bcast_S128_S1x128_1 b) (ix2 p q)
      = b (ix1 q) := by
  rw [broadcastInDim_apply _ bcast_S1x128_S40000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  exact broadcastInDim_apply _ bcast_S128_S1x128_1 b (ix2 (0 : Fin 1) q) (ix1 q) (fun a => match a with
    | ⟨0, _⟩ => by show q.val = if (128 : Nat) = 1 then 0 else q.val; rw [if_neg (by decide)])

/-- The head's bias vector of 64 entries, broadcast the same way. -/
theorem biasBroadcast64_apply (b : FVec Ideal S64 .f32) (p : Fin 40000) (q : Fin 64) :
    broadcastInDim S40000x64 ![0, 1] bcast_S1x64_S40000x64_0_1 (broadcastInDim S1x64 ![1] bcast_S64_S1x64_1 b) (ix2 p q)
      = b (ix1 q) := by
  rw [broadcastInDim_apply _ bcast_S1x64_S40000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])]
  exact broadcastInDim_apply _ bcast_S64_S1x64_1 b (ix2 (0 : Fin 1) q) (ix1 q) (fun a => match a with
    | ⟨0, _⟩ => by show q.val = if (64 : Nat) = 1 then 0 else q.val; rw [if_neg (by decide)])

/-- The clamp's zero: the zero word broadcast over the array reads 0. -/
theorem zeros_apply (i : S40000x128.Idx) :
    broadcastInDim S40000x128 ![] bcast_S_S40000x128 (constant (F := Ideal) S_ .f32 0x00000000#32) i = 0 := by
  rw [broadcastInDim_apply _ bcast_S_S40000x128 _ i ix0 (fun a => a.elim0)]
  exact Ideal.ofBits_zero_f32

/-- A maximum with the word of 1.0 is never 0, whatever the other operand: it is at least 1. -/
theorem clamp_one_ne_zero (a : EReal) :
    FloatOps.maximumf (F := Ideal) (φ := .f32) a (FloatOps.ofBits (F := Ideal) .f32 0x3F800000#32) ≠ 0 := by
  rw [Ideal.maximumf_def, Ideal.ofBits_def, ofBits_one_f32]
  exact max_one_ne_zero a

/-- The reference's layer as the program spells it: divide, two products, bias, clamp. -/
def refLayer (a x : FVec Ideal S40000x128 .f32) (d : FVec Ideal S40000 .f32) (wl wr : FVec Ideal S128x128 .f32)
    (b : FVec Ideal S128 .f32) : FVec Ideal S40000x128 .f32 :=
  maximumf
    (addf
      (addf
        (Host.dotGeneral dot_S40000x128_S128x128_S40000x128_1_0_0_1_n_n none
          (Host.divf a (broadcastInDim S40000x128 ![0, 1] bcast_S40000x1_S40000x128_0_1 (broadcastInDim S40000x1 ![0] bcast_S40000_S40000x1_0 d))) wl)
        (Host.dotGeneral dot_S40000x128_S128x128_S40000x128_1_0_0_1_n_n none x wr))
      (broadcastInDim S40000x128 ![0, 1] bcast_S1x128_S40000x128_0_1 (broadcastInDim S1x128 ![1] bcast_S128_S1x128_1 b)))
    (broadcastInDim S40000x128 ![] bcast_S_S40000x128 (constant S_ .f32 0x00000000#32))

/-- THE REFERENCE'S LAYER IS THE SPECIFICATION'S, with row factor `1 / d[p]`, wherever the clamped degree is not 0. -/
theorem refLayer_eq (a x : FVec Ideal S40000x128 .f32) (d : FVec Ideal S40000 .f32) (wl wr : FVec Ideal S128x128 .f32)
    (b : FVec Ideal S128 .f32) (hd : ∀ p : Fin 40000, d (ix1 p) ≠ 0) :
    refLayer a x d wl wr b = layer a x (fun p => Ideal.div 1 (d (ix1 p))) wl wr (fun q => b (ix1 q)) := by
  funext i
  obtain ⟨p, q, rfl⟩ : ∃ (p : Fin 40000) (q : Fin 128), i = ix2 p q := ⟨i 0, i 1, eq_ix2 i⟩
  rw [layer_ix2]
  unfold refLayer layerAt
  rw [maximumf_apply, addf_apply, addf_apply, hostDot_hidden_apply, hostDot_hidden_apply, biasBroadcast128_apply, zeros_apply]
  refine congrArg (fun s => max ((s + ∑ k : Fin 128, x (ix2 p k) * wr (ix2 k q)) + b (ix1 q)) 0)
    (Finset.sum_congr rfl fun k _ => ?_)
  rw [hostDivf_apply, rowBroadcast_apply, mul_div_one _ _ (hd p)]

/-- The reference's head as the program spells it. -/
def refHead (h : FVec Ideal S40000x128 .f32) (w : FVec Ideal S128x64 .f32) (b : FVec Ideal S64 .f32) : FVec Ideal S40000x64 .f32 :=
  addf (Host.dotGeneral dot_S40000x128_S128x64_S40000x64_1_0_0_1_n_n none h w)
    (broadcastInDim S40000x64 ![0, 1] bcast_S1x64_S40000x64_0_1 (broadcastInDim S1x64 ![1] bcast_S64_S1x64_1 b))

/-- THE REFERENCE'S HEAD IS THE SPECIFICATION'S. -/
theorem refHead_eq (h : FVec Ideal S40000x128 .f32) (w : FVec Ideal S128x64 .f32) (b : FVec Ideal S64 .f32) :
    refHead h w b = head h w (fun q => b (ix1 q)) := by
  funext i
  obtain ⟨p, q, rfl⟩ : ∃ (p : Fin 40000) (q : Fin 64), i = ix2 p q := ⟨i 0, i 1, eq_ix2 i⟩
  rw [head_ix2]
  unfold refHead headAt
  rw [addf_apply, hostDot_head_apply, biasBroadcast64_apply]

end Cert.Sage.Ref

end
-- ==== Proof.SageRef.lean ====
/-
  The reference program, read: its result is the head of the second layer of the first layer.

  Each of its two layers is the layer of the specification with the row factor 1 / d[p], d the degree clamped below at 1
  (never 0: it is a maximum with the word of 1.0); its result is the head of the second layer. The aggregated features
  (a gather of rows by each edge's source node, summed into the destination node's row) and the degree (a sum of ones
  into the destination node's entry) stay the terms the program computes: both programs compute them the same way.
-/
import proofs.«148231_j34600256537253_2_alg».proof.Proof.Gen.ReferenceIdeal.Read
import proofs.«148231_j34600256537253_2_alg».proof.Proof.SageRefOps

noncomputable section

namespace Cert.Sage.Ref

open Cert.ReferenceIdeal Cert.ReferenceIdeal.Gen Cert.ReferenceIdeal.Read Cert.Sage
open Idealize.ShloMosaic Idealize.ShloMosaic.ValueIdx

/-- The clamped degree is never 0: it is a maximum with the word of 1.0. -/
theorem degree_ne_zero (x1 : (⟨S2x640000, .i32⟩ : BufTy).Contents (Elt Ideal)) (p : Fin 40000) :
    val_main_v19 (F := Ideal) x1 (ix1 p) ≠ 0 := by
  rw [val_main_v19_apply, val_main_v18_apply, val_main_cst_3_apply]
  exact clamp_one_ne_zero _

/-- The degree is computed twice by the reference, the same way. -/
theorem degree_again (x1 : (⟨S2x640000, .i32⟩ : BufTy).Contents (Elt Ideal)) :
    val_main_v45 (F := Ideal) x1 = val_main_v19 (F := Ideal) x1 := by
  unfold val_main_v45 val_main_v44 val_main_v43 val_main_v42 val_main_v41 val_main_v40 val_main_cst_9 val_main_cst_8 val_main_cst_7
    val_main_v19 val_main_v18 val_main_v17 val_main_v16 val_main_v15 val_main_v14 val_main_cst_3 val_main_cst_2 val_main_cst_1
  rfl

/-- The row factor both layers use: the reciprocal of the clamped degree. -/
def rowFactor (x1 : (⟨S2x640000, .i32⟩ : BufTy).Contents (Elt Ideal)) : Fin 40000 → EReal :=
  fun p => Ideal.div 1 (val_main_v19 (F := Ideal) x1 (ix1 p))

variable (x0 : (⟨S40000x128, .f32⟩ : BufTy).Contents (Elt Ideal)) (x1 : (⟨S2x640000, .i32⟩ : BufTy).Contents (Elt Ideal))
  (x2 x3 : (⟨S128x128, .f32⟩ : BufTy).Contents (Elt Ideal)) (x4 : (⟨S128, .f32⟩ : BufTy).Contents (Elt Ideal))
  (x5 x6 : (⟨S128x128, .f32⟩ : BufTy).Contents (Elt Ideal)) (x7 : (⟨S128, .f32⟩ : BufTy).Contents (Elt Ideal))
  (x8 : (⟨S128x64, .f32⟩ : BufTy).Contents (Elt Ideal)) (x9 : (⟨S64, .f32⟩ : BufTy).Contents (Elt Ideal))

/-- THE FIRST LAYER of the reference: the layer of the aggregated inputs and the inputs. -/
theorem hidden1_eq : val_main_v29 (F := Ideal) x0 x1 x2 x3 x4
    = layer (val_main_v13 (F := Ideal) x0 x1) x0 (rowFactor x1) x2 x3 (fun q => x4 (ix1 q)) :=
  (show val_main_v29 (F := Ideal) x0 x1 x2 x3 x4 = refLayer (val_main_v13 (F := Ideal) x0 x1) x0 (val_main_v19 (F := Ideal) x1) x2 x3 x4 from by
      unfold val_main_v29 val_main_v28 val_main_v27 val_main_v26 val_main_v25 val_main_v24 val_main_v23 val_main_v22 val_main_v21 val_main_v20 val_main_call0_v0 val_main_call0_cst refLayer; rfl).trans
    (refLayer_eq _ _ _ _ _ _ (degree_ne_zero x1))

/-- THE SECOND LAYER of the reference: the layer of the aggregated first layer and the first layer. -/
theorem hidden2_eq : val_main_v55 (F := Ideal) x0 x1 x2 x3 x4 x5 x6 x7
    = layer (val_main_v39 (F := Ideal) x0 x1 x2 x3 x4) (val_main_v29 (F := Ideal) x0 x1 x2 x3 x4) (rowFactor x1) x5 x6 (fun q => x7 (ix1 q)) :=
  (show val_main_v55 (F := Ideal) x0 x1 x2 x3 x4 x5 x6 x7
      = refLayer (val_main_v39 (F := Ideal) x0 x1 x2 x3 x4) (val_main_v29 (F := Ideal) x0 x1 x2 x3 x4) (val_main_v45 (F := Ideal) x1) x5 x6 x7 from by
      unfold val_main_v55 val_main_v54 val_main_v53 val_main_v52 val_main_v51 val_main_v50 val_main_v49 val_main_v48 val_main_v47 val_main_v46 val_main_call1_v0 val_main_call1_cst refLayer; rfl).trans
    ((refLayer_eq _ _ _ _ _ _ (fun p => by rw [degree_again]; exact degree_ne_zero x1 p)).trans (by rw [degree_again]; rfl))

/-- THE REFERENCE'S RESULT: the head of the second layer. -/
theorem result_eq : val_main_v59 (F := Ideal) x0 x1 x2 x3 x4 x5 x6 x7 x8 x9
    = head (val_main_v55 (F := Ideal) x0 x1 x2 x3 x4 x5 x6 x7) x8 (fun q => x9 (ix1 q)) :=
  (show val_main_v59 (F := Ideal) x0 x1 x2 x3 x4 x5 x6 x7 x8 x9 = refHead (val_main_v55 (F := Ideal) x0 x1 x2 x3 x4 x5 x6 x7) x8 x9 from by
      unfold val_main_v59 val_main_v58 val_main_v57 val_main_v56 refHead; rfl).trans
    (refHead_eq _ _ _)

end Cert.Sage.Ref

end
-- ==== Proof.SageHost.lean ====
/-
  What each kernel finds in its arrays, and so what each leaves, in the reference's own terms.

  Before the first kernel the host computes, from the edge list, the source and destination node of each edge, the
  clamped degree of each node and its reciprocal as a column, and the sum over each node's incoming edges of the source
  rows of the features; a change of float format around the gather is the identity on extended reals, so these are the
  very terms the reference computes. The first kernel's output array is therefore the reference's first layer. Between
  the kernels the host aggregates that array the same way, and the second kernel's output array is the reference's
  result.
-/
import proofs.«148231_j34600256537253_2_alg».proof.Proof.Gen.KernelIdeal.Frame
import proofs.«148231_j34600256537253_2_alg».proof.Proof.Gen.ReferenceIdeal.Read
import proofs.«148231_j34600256537253_2_alg».proof.Proof.SageBlocks
import proofs.«148231_j34600256537253_2_alg».proof.Proof.SageRef
import Idealize.ShloMosaic.Lib.StableHlo.Run
import Idealize.ShloMosaic.Lib.IdealHost
import Idealize.ShloMosaic.Lib.ValueLayout

set_option maxRecDepth 16384

noncomputable section

namespace Cert.Sage

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-! ## Reading a reshaped column and a reshaped row -/

/-- The column of reciprocals: a vector of ones divided by the clamped degrees `d`, reshaped to a column, reads at row
    `p` the reciprocal `1 / d[p]`. -/
theorem reciprocalColumn_apply (d : FVec Ideal S40000 .f32) (p : Fin 40000) :
    shapeCast S40000x1 (Host.divf (F := Ideal) (broadcastInDim S40000 ![] bcast_S_S40000 (constant (F := Ideal) S_ .f32 0x3F800000#32)) d)
        shapeCasts_S40000_S40000x1 (ix2 p (0 : Fin 1))
      = Ideal.div 1 (d (ix1 p)) := by
  rw [Cert.LibLayout.shapeCast_a_a1_apply, hostDivf_apply,
    broadcastInDim_apply _ bcast_S_S40000 _ (ix1 p) ix0 (fun a => a.elim0)]
  show Ideal.div (Ideal.ofBits .f32 0x3F800000#32) _ = _
  rw [ofBits_one_f32]

/-- A bias vector of 128 entries reshaped to a row reads its entry. -/
theorem biasRow128_apply (b : FVec Ideal S128 .f32) (q : Fin 128) :
    shapeCast S1x128 b shapeCasts_S128_S1x128 (ix2 (0 : Fin 1) q) = b (ix1 q) :=
  shapeCast_a_1a_apply b shapeCasts_S128_S1x128 0 q

/-- The head's bias vector of 64 entries reshaped to a row reads its entry. -/
theorem biasRow64_apply (b : FVec Ideal S64 .f32) (q : Fin 64) :
    shapeCast S1x64 b shapeCasts_S64_S1x64 (ix2 (0 : Fin 1) q) = b (ix1 q) :=
  shapeCast_a_1a_apply b shapeCasts_S64_S1x64 0 q

/-! ## What the first kernel finds -/

/-- The aggregated input features. -/
theorem found1_agg (c : Dev nD) :
    V1 m ρ c main_v24 = Cert.ReferenceIdeal.Read.val_main_v13 (F := Ideal) (m ((c : Thread nD τ).loc main_arg0)) (m ((c : Thread nD τ).loc main_arg1)) := by
  show StableHlo.after hostOps0 (W0 m ρ c) (Proc.devRef .tc main_v24) = _
  after_results_simp
  unfold Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0 Cert.ReferenceIdeal.Read.val_main_cst Cert.ReferenceIdeal.Read.val_main_c Cert.ReferenceIdeal.Read.val_main_c_0
  rfl

/-- The column of reciprocal degrees. -/
theorem found1_scale (c : Dev nD) :
    V1 m ρ c main_v12 = shapeCast S40000x1 (Host.divf (F := Ideal) (broadcastInDim S40000 ![] bcast_S_S40000 (constant (F := Ideal) S_ .f32 0x3F800000#32))
        (Cert.ReferenceIdeal.Read.val_main_v19 (F := Ideal) (m ((c : Thread nD τ).loc main_arg1)))) shapeCasts_S40000_S40000x1 := by
  show StableHlo.after hostOps0 (W0 m ρ c) (Proc.devRef .tc main_v12) = _
  after_results_simp
  unfold Cert.ReferenceIdeal.Read.val_main_v19 Cert.ReferenceIdeal.Read.val_main_v18 Cert.ReferenceIdeal.Read.val_main_v17 Cert.ReferenceIdeal.Read.val_main_v16 Cert.ReferenceIdeal.Read.val_main_v15 Cert.ReferenceIdeal.Read.val_main_v14 Cert.ReferenceIdeal.Read.val_main_cst_3 Cert.ReferenceIdeal.Read.val_main_cst_2 Cert.ReferenceIdeal.Read.val_main_cst_1 Cert.ReferenceIdeal.Read.val_main_v3 Cert.ReferenceIdeal.Read.val_main_v2
  rfl

/-- The first bias as a row. -/
theorem found1_bias (c : Dev nD) : V1 m ρ c main_v25 = shapeCast S1x128 (m ((c : Thread nD τ).loc main_arg4)) shapeCasts_S128_S1x128 := by
  show StableHlo.after hostOps0 (W0 m ρ c) (Proc.devRef .tc main_v25) = _
  after_results_simp
  rfl

/-- An argument no host operation of the first stretch writes. -/
theorem found1_arg0 (c : Dev nD) : V1 m ρ c main_arg0 = (m ((c : Thread nD τ).loc main_arg0)) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem found1_arg2 (c : Dev nD) : V1 m ρ c main_arg2 = (m ((c : Thread nD τ).loc main_arg2)) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem found1_arg3 (c : Dev nD) : V1 m ρ c main_arg3 = (m ((c : Thread nD τ).loc main_arg3)) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The source and the destination node of each edge, as the first stretch leaves them. -/
theorem found1_src (c : Dev nD) : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp
  unfold Cert.ReferenceIdeal.Read.val_main_v1 Cert.ReferenceIdeal.Read.val_main_v0
  rfl
theorem found1_dst (c : Dev nD) : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  unfold Cert.ReferenceIdeal.Read.val_main_v3 Cert.ReferenceIdeal.Read.val_main_v2
  rfl

/-- THE FIRST KERNEL'S OUTPUT ARRAY is the reference's first layer. -/
theorem hidden1_array (c : Dev nD) : (dat0 (V1 m ρ) c).arrAt 6 cfg0.N
    = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [layer1_array_eq (V1 m ρ) c, Ref.hidden1_eq]
  unfold layer1_array
  rw [found1_agg m ρ c, found1_arg0 m ρ c, found1_arg2 m ρ c, found1_arg3 m ρ c]
  refine congrArg₂ (fun s b => layer _ _ s _ _ b) (funext fun p => ?_) (funext fun q => ?_)
  · rw [found1_scale m ρ c]; exact reciprocalColumn_apply _ p
  · rw [found1_bias m ρ c]; exact biasRow128_apply _ q

/-! ## What the second kernel finds -/

/-- After the first kernel its output buffer holds the first layer … -/
theorem between_hidden (c : Dev nD) : W2 m ρ c (Proc.devRef .tc main_v26)
    = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 6).trans (hidden1_array m ρ c)

/-- … the column of reciprocals is as the first kernel found it (it only reads it) … -/
theorem between_scale (c : Dev nD) : W2 m ρ c (Proc.devRef .tc main_v12) = V1 m ρ c main_v12 :=
  (W2_arr m ρ c 2).trans (((dat0 (V1 m ρ) c).arrAt_in 2 rfl _).trans (A_eq0 (V1 m ρ) c 2))

/-- … and the edges' source and destination nodes, and the arguments, are untouched. -/
theorem between_src (c : Dev nD) : W2 m ρ c (Proc.devRef .tc main_v1) = Cert.ReferenceIdeal.Read.val_main_v1 (F := Ideal) (m ((c : Thread nD τ).loc main_arg1)) :=
  (W2_of_ne m ρ c main_v1 (by decide)).trans (found1_src m ρ c)
theorem between_dst (c : Dev nD) : W2 m ρ c (Proc.devRef .tc main_v3) = Cert.ReferenceIdeal.Read.val_main_v3 (F := Ideal) (m ((c : Thread nD τ).loc main_arg1)) :=
  (W2_of_ne m ρ c main_v3 (by decide)).trans (found1_dst m ρ c)
theorem between_arg5 (c : Dev nD) : W2 m ρ c (Proc.devRef .tc main_arg5) = (m ((c : Thread nD τ).loc main_arg5)) :=
  (W2_of_ne m ρ c main_arg5 (by decide)).trans (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
theorem between_arg6 (c : Dev nD) : W2 m ρ c (Proc.devRef .tc main_arg6) = (m ((c : Thread nD τ).loc main_arg6)) :=
  (W2_of_ne m ρ c main_arg6 (by decide)).trans (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
theorem between_arg7 (c : Dev nD) : W2 m ρ c (Proc.devRef .tc main_arg7) = (m ((c : Thread nD τ).loc main_arg7)) :=
  (W2_of_ne m ρ c main_arg7 (by decide)).trans (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
theorem between_arg8 (c : Dev nD) : W2 m ρ c (Proc.devRef .tc main_arg8) = (m ((c : Thread nD τ).loc main_arg8)) :=
  (W2_of_ne m ρ c main_arg8 (by decide)).trans (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
theorem between_arg9 (c : Dev nD) : W2 m ρ c (Proc.devRef .tc main_arg9) = (m ((c : Thread nD τ).loc main_arg9)) :=
  (W2_of_ne m ρ c main_arg9 (by decide)).trans (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

set_option maxHeartbeats 2000000 in
/-- The aggregated first layer. -/
theorem found2_agg (c : Dev nD) : V3 m ρ c main_v38
    = Cert.ReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v38) = _
  after_results_simp
  rw [between_hidden m ρ c, between_src m ρ c, between_dst m ρ c]
  unfold Cert.ReferenceIdeal.Read.val_main_v39 Cert.ReferenceIdeal.Read.val_main_v38 Cert.ReferenceIdeal.Read.val_main_v37 Cert.ReferenceIdeal.Read.val_main_v36 Cert.ReferenceIdeal.Read.val_main_v35 Cert.ReferenceIdeal.Read.val_main_v34 Cert.ReferenceIdeal.Read.val_main_v33 Cert.ReferenceIdeal.Read.val_main_v32 Cert.ReferenceIdeal.Read.val_main_v31 Cert.ReferenceIdeal.Read.val_main_v30 Cert.ReferenceIdeal.Read.val_main_cst_6 Cert.ReferenceIdeal.Read.val_main_c_5 Cert.ReferenceIdeal.Read.val_main_c_4
  rfl

/-- The first layer itself, which no host operation of the second stretch writes. -/
theorem found2_hidden (c : Dev nD) : V3 m ρ c main_v26
    = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (between_hidden m ρ c)

/-- The column of reciprocals. -/
theorem found2_scale (c : Dev nD) : V3 m ρ c main_v12 = V1 m ρ c main_v12 :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (between_scale m ρ c)

/-- The two biases as rows. -/
theorem found2_bias (c : Dev nD) : V3 m ρ c main_v39 = shapeCast S1x128 (m ((c : Thread nD τ).loc main_arg7)) shapeCasts_S128_S1x128 := by
  show StableHlo.after hostOps1 (W2 m ρ c) (Proc.devRef .tc main_v39) = _
  after_results_simp
  rw [between_arg7 m ρ c]
  rfl
theorem found2_headBias (c : Dev nD) : V3 m ρ c main_v40 = shapeCast S1x64 (m ((c : Thread nD τ).loc main_arg9)) shapeCasts_S64_S1x64 := by
  show StableHlo.after hostOps1 (W2 m ρ c) (Proc.devRef .tc main_v40) = _
  after_results_simp
  rw [between_arg9 m ρ c]
  rfl

/-- The weights. -/
theorem found2_arg5 (c : Dev nD) : V3 m ρ c main_arg5 = (m ((c : Thread nD τ).loc main_arg5)) :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (between_arg5 m ρ c)
theorem found2_arg6 (c : Dev nD) : V3 m ρ c main_arg6 = (m ((c : Thread nD τ).loc main_arg6)) :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (between_arg6 m ρ c)
theorem found2_arg8 (c : Dev nD) : V3 m ρ c main_arg8 = (m ((c : Thread nD τ).loc main_arg8)) :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (between_arg8 m ρ c)

/-- THE SECOND KERNEL'S OUTPUT ARRAY is the reference's result. -/
theorem result_array (c : Dev nD) : (dat1 (V3 m ρ) c).arrAt 8 cfg1.N
    = Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [head_array_eq (V3 m ρ) c, Ref.result_eq, Ref.hidden2_eq]
  unfold head_array
  rw [found2_agg m ρ c, found2_hidden m ρ c, found2_arg5 m ρ c, found2_arg6 m ρ c, found2_arg8 m ρ c]
  refine congrArg₂ (fun h b => head h _ b) ?_ (funext fun q => ?_)
  · refine congrArg₂ (fun s b => layer _ _ s _ _ b) (funext fun p => ?_) (funext fun q => ?_)
    · rw [found2_scale m ρ c, found1_scale m ρ c]; exact reciprocalColumn_apply _ p
    · rw [found2_bias m ρ c]; exact biasRow128_apply _ q
  · rw [found2_headBias m ρ c]; exact biasRow64_apply _ q

end Cert.Sage

end
-- ==== Proof.lean ====
/-
  Two GraphSAGE layers with mean aggregation and a linear head: a kernel program against its plain reference.

  Both programs take node features x (40000 × 128), an edge list, and the weights and biases of two layers and a head.
  For each layer the aggregated features of a node are the sum of the features of the source nodes of its incoming
  edges, divided by the node's degree clamped below at 1; the layer is
      relu( mean-aggregate(h) · Wl + h · Wr + b ),
  and the result is  layer2(layer1(x)) · Wout + bout.

  The reference computes this with whole-array host operations. The kernel program computes the degree once, takes its
  reciprocal, and runs each layer as a kernel over 20 blocks of 2000 node rows that MULTIPLIES the aggregated block by
  the reciprocal column before the matrix products (the second kernel also applies the head); the gathers between them
  pass through a narrower float format. At the extended reals the format changes are the identity, a matrix product is
  the sum over the contracted index whatever its tiling, and  a · (1/d) = a / d  for every d ≠ 0 — and the clamped
  degree is at least 1 — so the two programs compute the same function of their arguments, entry by entry. No use is
  made of the inputs being finite.

  The modules: SageSpec (the layer and the head as functions, and the law), SagePayload (each kernel body at an entry of
  its block), SageBlocks (each kernel's output array from its 20 blocks), SageRun (the kernel program's run with every
  buffer's final contents), SageRef (the reference's stages as the same functions), SageHost (what each kernel finds in
  its arrays, hence what it leaves, as the reference's stages), LibLayout (reshapes and broadcasts of a unit axis read
  at coordinates).
-/
import proofs.«148231_j34600256537253_2_alg».proof.Defs
import proofs.«148231_j34600256537253_2_alg».proof.Proof.Gen.Kernel
import proofs.«148231_j34600256537253_2_alg».proof.Proof.Gen.Kernel.Frame
import proofs.«148231_j34600256537253_2_alg».proof.Proof.Gen.KernelIdeal
import proofs.«148231_j34600256537253_2_alg».proof.Proof.Gen.KernelIdeal.Frame
import proofs.«148231_j34600256537253_2_alg».proof.Proof.Gen.ReferenceIdeal
import proofs.«148231_j34600256537253_2_alg».proof.Proof.Gen.Pre_finite_inputs
import proofs.«148231_j34600256537253_2_alg».proof.Proof.Gen.ReferenceIdeal.Read
import proofs.«148231_j34600256537253_2_alg».proof.Proof.SageRun
import proofs.«148231_j34600256537253_2_alg».proof.Proof.SageHost
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing: the idealized kernel is the kernel's own text read at the extended reals. -/
theorem preserves : Cert.preserves_Kernel_KernelIdeal := trivial

/-- From memories agreeing on the arguments both programs end with the same result: the kernel program's result
    array is the reference's last stage of the kernel's arguments (SageHost), the reference's is that stage of its own
    arguments (its generated run), and the arguments agree. -/
theorem algebraic : Cert.algebraic_KernelIdeal_ReferenceIdeal := by
  intro m ρ m' ρ' _ hagree
  refine ⟨fun c => Cert.ReferenceIdeal.Read.val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.Sage.result_array m ρ c), (h c).2⟩) (Cert.Sage.run_result m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v59_eq, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
